-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S128x128 : Shape := ⟨2, ![128, 128]⟩
abbrev S128 : Shape := ⟨1, ![128]⟩
abbrev S192x128 : Shape := ⟨2, ![192, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_

variable [Facts]

def fn_part1 {F : FTy → Type} [FloatOps F] (main_arg4 : FVec F S192x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg4
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : FVec F S128x128 .f32) (main_arg3 : FVec F S128 .f32) (main_arg4 : FVec F S192x128 .f32) (main_arg5 : FVec F S128 .f32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x64 : Shape := ⟨2, ![50000, 64]⟩
abbrev S800000x64 : Shape := ⟨2, ![800000, 64]⟩
abbrev S128x128 : Shape := ⟨2, ![128, 128]⟩
abbrev S128 : Shape := ⟨1, ![128]⟩
abbrev S192x128 : Shape := ⟨2, ![192, 128]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S1x128 : Shape := ⟨2, ![1, 128]⟩
abbrev S800000x128 : Shape := ⟨2, ![800000, 128]⟩
abbrev S10000x64 : Shape := ⟨2, ![10000, 64]⟩
abbrev S10000x128 : Shape := ⟨2, ![10000, 128]⟩
abbrev S50000x128 : Shape := ⟨2, ![50000, 128]⟩

abbrev nBuf : Space → Nat
  | .hbm => 35
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S128x128, .f32⟩
  | .hbm, ⟨3, _⟩ => ⟨S128, .f32⟩
  | .hbm, ⟨4, _⟩ => ⟨S192x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S50000x64, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .bf16⟩
  | .hbm, ⟨18, _⟩ => ⟨S64x128, .f32⟩
  | .hbm, ⟨19, _⟩ => ⟨S64x128, .bf16⟩
  | .hbm, ⟨20, _⟩ => ⟨S64x128, .f32⟩
  | .hbm, ⟨21, _⟩ => ⟨S64x128, .bf16⟩
  | .hbm, ⟨22, _⟩ => ⟨S1x128, .f32⟩
  | .hbm, ⟨23, _⟩ => ⟨S800000x128, .bf16⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S64x128, .f32⟩
  | .hbm, ⟨30, _⟩ => ⟨S64x128, .bf16⟩
  | .hbm, ⟨31, _⟩ => ⟨S128x128, .f32⟩
  | .hbm, ⟨32, _⟩ => ⟨S128x128, .bf16⟩
  | .hbm, ⟨33, _⟩ => ⟨S1x128, .f32⟩
  | .hbm, ⟨34, _⟩ => ⟨S50000x128, .f32⟩
  | .local _ .vmem, ⟨0, _⟩ => ⟨S10000x64, .bf16⟩
  | .local _ .vmem, ⟨1, _⟩ => ⟨S10000x64, .bf16⟩
  | .local _ .vmem, ⟨2, _⟩ => ⟨S10000x64, .f32⟩
  | .local _ .vmem, ⟨3, _⟩ => ⟨S10000x64, .f32⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S10000x128, .bf16⟩
  | .local _ .vmem, ⟨8, _⟩ => ⟨S10000x128, .bf16⟩
  | .local _ .vmem, ⟨9, _⟩ => ⟨S10000x64, .bf16⟩
  | .local _ .vmem, ⟨10, _⟩ => ⟨S10000x64, .bf16⟩
  | .local _ .vmem, ⟨11, _⟩ => ⟨S10000x128, .f32⟩
  | .local _ .vmem, ⟨12, _⟩ => ⟨S10000x128, .f32⟩
  | .local _ .vmem, ⟨13, _⟩ => ⟨S64x128, .bf16⟩
  | .local _ .vmem, ⟨14, _⟩ => ⟨S128x128, .bf16⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S128x128_S64x128_0_0 : S128x128.Slices ![0, 0] S64x128
  slices_S128x128_S64x128_64_0 : S128x128.Slices ![64, 0] S64x128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S50000x128 : S_.BroadcastsInDim S50000x128 (![] : Fin 0 → Fin S50000x128.rank)
  slices_S192x128_S64x128_0_0 : S192x128.Slices ![0, 0] S64x128
  slices_S192x128_S128x128_64_0 : S192x128.Slices ![64, 0] S128x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .bf16 = 32 ∨ (Rect.block (s := S800000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S800000x128.size a
  hwx0_5 : ∀ i : grid0.Coords, EltTy.bits .bf16 = 32 ∨ (Rect.block (s := S800000x128) S10000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S128x128 : Shape := ⟨2, ![128, 128]⟩
abbrev S128 : Shape := ⟨1, ![128]⟩
abbrev S192x128 : Shape := ⟨2, ![192, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩

abbrev nBuf : Space → Nat
  | .hbm => 37
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S128x128, .f32⟩
  | .hbm, ⟨3, _⟩ => ⟨S128, .f32⟩
  | .hbm, ⟨4, _⟩ => ⟨S192x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x128, .f32⟩
  | .hbm, ⟨18, _⟩ => ⟨S800000x128, .f32⟩
  | .hbm, ⟨19, _⟩ => ⟨S1x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x192, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf

class Facts : Prop extends Facts₀ where

variable [Facts]
-- ==== Proof.KernelRun.lean ====
/-
  The idealized kernel program's run with its result named.

  The program is two kernel regions among stretches of host operations. Its run ends with every unscoped buffer at
  the contents of the last segment boundary, the fold `W4` of the segments over the launch memory; so the result
  buffer ends at `W4` read at the result's reference, and each argument ends as launched.
-/
import proofs.«160304_j33200097198873_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KernelTerm.lean ====
/-
  The idealized kernel program's host-side values, named: what the host operations around the two regions
  compute from the argument arrays.

  * `gathered x0 x6`: the node features' rows picked by the source indices (a negative index counted from the end
    first), one row per edge;
  * `msgTop w`, `msgBot w`: rows 0–63 and 64–127 of the message weights; `updTop w`, `updBot w`: rows 0–63 and
    64–191 of the update weights;
  * `biasRow b`: a bias vector as a one-row matrix;
  * `aggregated x7 msg`: the messages summed into their destination nodes' rows, from zero.
  Every change of float format is kept as printed; at the extended reals each is the identity.
-/
import proofs.«160304_j33200097198873_2_alg».proof.Proof.Gen.KernelIdeal

noncomputable section

namespace Cert.KernelIdeal.Term

open Idealize.ShloMosaic Idealize.SL.Sem
open Cert.KernelIdeal Cert.KernelIdeal.Gen

variable {F : FTy → Type} [FloatOps F]

/-- The source nodes' feature rows, one per edge. -/
def gathered (x0 : (⟨S50000x64, .f32⟩ : BufTy).Contents (Elt F)) (x6 : (⟨S800000, .i32⟩ : BufTy).Contents (Elt F)) :
    (⟨S800000x64, .bf16⟩ : BufTy).Contents (Elt F) :=
  Host.gather gather_S50000x64_S800000x1_S800000x64_1_0_n_n_0_1_164 (truncf .bf16 x0 bitsLt_bf16_f32)
    (broadcastInDim S800000x1 ![0] bcast_S800000_S800000x1_0
      (select (cmpi .slt x6 (broadcastInDim S800000 ![] bcast_S_S800000 (constantI S_ 32 0#32)))
        (addi x6 (broadcastInDim S800000 ![] bcast_S_S800000 (constantI S_ 32 50000#32))) x6))

/-- Rows 0–63 of the message weights. -/
def msgTop (x2 : (⟨S128x128, .f32⟩ : BufTy).Contents (Elt F)) : (⟨S64x128, .bf16⟩ : BufTy).Contents (Elt F) :=
  truncf .bf16 (extractStridedSlice S64x128 ![0, 0] x2 slices_S128x128_S64x128_0_0) bitsLt_bf16_f32
/-- Rows 64–127 of the message weights. -/
def msgBot (x2 : (⟨S128x128, .f32⟩ : BufTy).Contents (Elt F)) : (⟨S64x128, .bf16⟩ : BufTy).Contents (Elt F) :=
  truncf .bf16 (extractStridedSlice S64x128 ![64, 0] x2 slices_S128x128_S64x128_64_0) bitsLt_bf16_f32
/-- Rows 0–63 of the update weights. -/
def updTop (x4 : (⟨S192x128, .f32⟩ : BufTy).Contents (Elt F)) : (⟨S64x128, .bf16⟩ : BufTy).Contents (Elt F) :=
  truncf .bf16 (extractStridedSlice S64x128 ![0, 0] x4 slices_S192x128_S64x128_0_0) bitsLt_bf16_f32
/-- Rows 64–191 of the update weights. -/
def updBot (x4 : (⟨S192x128, .f32⟩ : BufTy).Contents (Elt F)) : (⟨S128x128, .bf16⟩ : BufTy).Contents (Elt F) :=
  truncf .bf16 (extractStridedSlice S128x128 ![64, 0] x4 slices_S192x128_S128x128_64_0) bitsLt_bf16_f32
/-- A bias vector as a one-row matrix. -/
def biasRow (x : (⟨S128, .f32⟩ : BufTy).Contents (Elt F)) : (⟨S1x128, .f32⟩ : BufTy).Contents (Elt F) :=
  shapeCast S1x128 x shapeCasts_S128_S1x128
/-- The messages summed into their destination nodes' rows. -/
def aggregated (x7 : (⟨S800000, .i32⟩ : BufTy).Contents (Elt F)) (msg : (⟨S800000x128, .bf16⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x7)
    (extf .f32 msg bitsLt_bf16_f32)
/-- The node features in the format the update region reads them in. -/
def nodeRows (x0 : (⟨S50000x64, .f32⟩ : BufTy).Contents (Elt F)) : (⟨S50000x64, .bf16⟩ : BufTy).Contents (Elt F) :=
  truncf .bf16 x0 bitsLt_bf16_f32

end Cert.KernelIdeal.Term

end
-- ==== Proof.EntryContents.lean ====
/-
  What each region of the idealized kernel program finds in its windows' arrays, as values of the argument
  arrays: the host operations before a region are a straight line of pure operations, so each array a region
  reads is that line's value at its buffer. Region 1 also reads what region 0 left in its result array, carried
  here as the contents `W2` of the boundary between them.
-/
import proofs.«160304_j33200097198873_2_alg».proof.Proof.Gen.KernelIdeal.Frame
import proofs.«160304_j33200097198873_2_alg».proof.Proof.KernelTerm
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Term

variable {F : FTy → Type} [FloatOps F]
variable (m : (ℓ : Loc nD τ sig) → Buf (Elt F) ℓ) (ρ : Dev nD → PrngReg)

/-! ## Region 0's entry: the first stretch of host operations over the launch memory -/

theorem V1_v7 (c : Dev nD) : V1 m ρ c main_v7 = gathered (m ((c.tc : Thread nD τ).loc main_arg0)) (m ((c.tc : Thread nD τ).loc main_arg6)) := by
  show StableHlo.after hostOps0 (W0 m ρ c) (Proc.devRef .tc main_v7) = _
  dsimp only [hostOps0]
  after_results
  rfl
theorem V1_arg1 (c : Dev nD) : V1 m ρ c main_arg1 = m ((c.tc : Thread nD τ).loc main_arg1) := by
  show StableHlo.after hostOps0 (W0 m ρ c) (Proc.devRef .tc main_arg1) = _
  dsimp only [hostOps0]
  after_results
theorem V1_v9 (c : Dev nD) : V1 m ρ c main_v9 = msgTop (m ((c.tc : Thread nD τ).loc main_arg2)) := by
  show StableHlo.after hostOps0 (W0 m ρ c) (Proc.devRef .tc main_v9) = _
  dsimp only [hostOps0]
  after_results
  rfl
theorem V1_v11 (c : Dev nD) : V1 m ρ c main_v11 = msgBot (m ((c.tc : Thread nD τ).loc main_arg2)) := by
  show StableHlo.after hostOps0 (W0 m ρ c) (Proc.devRef .tc main_v11) = _
  dsimp only [hostOps0]
  after_results
  rfl
theorem V1_v12 (c : Dev nD) : V1 m ρ c main_v12 = biasRow (m ((c.tc : Thread nD τ).loc main_arg3)) := by
  show StableHlo.after hostOps0 (W0 m ρ c) (Proc.devRef .tc main_v12) = _
  dsimp only [hostOps0]
  after_results
  rfl
theorem W1_v0 (c : Dev nD) : W1 m ρ c (Proc.devRef .tc main_v0) = nodeRows (m ((c.tc : Thread nD τ).loc main_arg0)) := by
  show StableHlo.after hostOps0 (W0 m ρ c) (Proc.devRef .tc main_v0) = _
  dsimp only [hostOps0]
  after_results
  rfl
theorem W1_arg (c : Dev nD) (b : Ref sig .tc) (hb : b = main_arg4 ∨ b = main_arg5 ∨ b = main_arg7) :
    W1 m ρ c (Proc.devRef .tc b) = m ((c.tc : Thread nD τ).loc b) := by
  show StableHlo.after hostOps0 (W0 m ρ c) (Proc.devRef .tc b) = _
  dsimp only [hostOps0]
  rcases hb with rfl | rfl | rfl <;> after_results

/-! ## The boundary between the regions: region 0 writes its result array only -/

theorem W2_v0 (c : Dev nD) : W2 m ρ c (Proc.devRef .tc main_v0) = nodeRows (m ((c.tc : Thread nD τ).loc main_arg0)) :=
  (W2_of_ne m ρ c main_v0 (by decide)).trans (W1_v0 m ρ c)
theorem W2_arg4 (c : Dev nD) : W2 m ρ c (Proc.devRef .tc main_arg4) = m ((c.tc : Thread nD τ).loc main_arg4) :=
  (W2_of_ne m ρ c main_arg4 (by decide)).trans (W1_arg m ρ c main_arg4 (.inl rfl))
theorem W2_arg5 (c : Dev nD) : W2 m ρ c (Proc.devRef .tc main_arg5) = m ((c.tc : Thread nD τ).loc main_arg5) :=
  (W2_of_ne m ρ c main_arg5 (by decide)).trans (W1_arg m ρ c main_arg5 (.inr (.inl rfl)))
theorem W2_arg7 (c : Dev nD) : W2 m ρ c (Proc.devRef .tc main_arg7) = m ((c.tc : Thread nD τ).loc main_arg7) :=
  (W2_of_ne m ρ c main_arg7 (by decide)).trans (W1_arg m ρ c main_arg7 (.inr (.inr rfl)))

/-! ## Region 1's entry: the second stretch over that boundary -/

theorem V3_v0 (c : Dev nD) : V3 m ρ c main_v0 = nodeRows (m ((c.tc : Thread nD τ).loc main_arg0)) := by
  show StableHlo.after hostOps1 (W2 m ρ c) (Proc.devRef .tc main_v0) = _
  dsimp only [hostOps1]
  after_results
  exact W2_v0 m ρ c
theorem V3_v17 (c : Dev nD) : V3 m ρ c main_v17 = aggregated (m ((c.tc : Thread nD τ).loc main_arg7)) (W2 m ρ c (Proc.devRef .tc main_v13)) := by
  show StableHlo.after hostOps1 (W2 m ρ c) (Proc.devRef .tc main_v17) = _
  dsimp only [hostOps1]
  after_results
  rw [W2_arg7 m ρ c]
  rfl
theorem V3_v19 (c : Dev nD) : V3 m ρ c main_v19 = updTop (m ((c.tc : Thread nD τ).loc main_arg4)) := by
  show StableHlo.after hostOps1 (W2 m ρ c) (Proc.devRef .tc main_v19) = _
  dsimp only [hostOps1]
  after_results
  rw [W2_arg4 m ρ c]
  rfl
theorem V3_v21 (c : Dev nD) : V3 m ρ c main_v21 = updBot (m ((c.tc : Thread nD τ).loc main_arg4)) := by
  show StableHlo.after hostOps1 (W2 m ρ c) (Proc.devRef .tc main_v21) = _
  dsimp only [hostOps1]
  after_results
  rw [W2_arg4 m ρ c]
  rfl
theorem V3_v22 (c : Dev nD) : V3 m ρ c main_v22 = biasRow (m ((c.tc : Thread nD τ).loc main_arg5)) := by
  show StableHlo.after hostOps1 (W2 m ρ c) (Proc.devRef .tc main_v22) = _
  dsimp only [hostOps1]
  after_results
  rw [W2_arg5 m ρ c]
  rfl

end Cert.KernelIdeal.Entry

end
-- ==== Proof.Layer.lean ====
/-
  One dense layer with two inputs and a rectifier, on the extended reals.

  For X : [R, a], Y : [R, b], weights Wx : [a, n], Wy : [b, n] and a one-row bias B : [1, n], entry (r, j) of
  `layer X Y Wx Wy B` is

      max ((∑ k, X(r, k) · Wx(k, j)) + (∑ k, Y(r, k) · Wy(k, j)) + B(0, j)) 0.

  Entry (r, j) depends on row r of X and of Y, on column j of the weights and on the bias at j only
  (`layer_congr_at`): a block of rows of the result is the layer of the same blocks of rows of the two inputs.
-/
import Idealize.ShloMosaic.Lib.ValueIdx

noncomputable section

open scoped BigOperators

namespace Cert.Layer

open Idealize.ShloMosaic Idealize.ShloMosaic.ValueIdx

/-- The layer, entry by entry. -/
def layer {R a b n : ℕ} (X : (⟨2, ![R, a]⟩ : Shape).Idx → EReal) (Y : (⟨2, ![R, b]⟩ : Shape).Idx → EReal)
    (Wx : (⟨2, ![a, n]⟩ : Shape).Idx → EReal) (Wy : (⟨2, ![b, n]⟩ : Shape).Idx → EReal)
    (B : (⟨2, ![1, n]⟩ : Shape).Idx → EReal) : (⟨2, ![R, n]⟩ : Shape).Idx → EReal :=
  fun i => max (((∑ k : Fin a, X (ix2 (i 0 : Fin R) k) * Wx (ix2 k (i 1 : Fin n)))
    + (∑ k : Fin b, Y (ix2 (i 0 : Fin R) k) * Wy (ix2 k (i 1 : Fin n)))) + B (ix2 (0 : Fin 1) (i 1 : Fin n))) 0

/-- The layer at the entry (r, j). -/
theorem layer_apply {R a b n : ℕ} (X : (⟨2, ![R, a]⟩ : Shape).Idx → EReal) (Y : (⟨2, ![R, b]⟩ : Shape).Idx → EReal)
    (Wx : (⟨2, ![a, n]⟩ : Shape).Idx → EReal) (Wy : (⟨2, ![b, n]⟩ : Shape).Idx → EReal)
    (B : (⟨2, ![1, n]⟩ : Shape).Idx → EReal) (r : Fin R) (j : Fin n) :
    layer X Y Wx Wy B (ix2 r j)
      = max (((∑ k : Fin a, X (ix2 r k) * Wx (ix2 k j)) + (∑ k : Fin b, Y (ix2 r k) * Wy (ix2 k j)))
          + B (ix2 (0 : Fin 1) j)) 0 := rfl

/-- The entry of one layer at an index `y` is the entry of another at an index `i` of the same column when row
    `y 0` of the first's inputs is row `i 0` of the second's, and the weights' column and the bias there agree. -/
theorem layer_congr_at {R R' a b n : ℕ} (X' : (⟨2, ![R', a]⟩ : Shape).Idx → EReal) (Y' : (⟨2, ![R', b]⟩ : Shape).Idx → EReal)
    (Wx' : (⟨2, ![a, n]⟩ : Shape).Idx → EReal) (Wy' : (⟨2, ![b, n]⟩ : Shape).Idx → EReal)
    (B' : (⟨2, ![1, n]⟩ : Shape).Idx → EReal)
    (X : (⟨2, ![R, a]⟩ : Shape).Idx → EReal) (Y : (⟨2, ![R, b]⟩ : Shape).Idx → EReal)
    (Wx : (⟨2, ![a, n]⟩ : Shape).Idx → EReal) (Wy : (⟨2, ![b, n]⟩ : Shape).Idx → EReal)
    (B : (⟨2, ![1, n]⟩ : Shape).Idx → EReal)
    (y : (⟨2, ![R', n]⟩ : Shape).Idx) (i : (⟨2, ![R, n]⟩ : Shape).Idx)
    (hj : (i 1 : Fin n) = (y 1 : Fin n))
    (hX : ∀ k : Fin a, X' (ix2 (y 0 : Fin R') k) = X (ix2 (i 0 : Fin R) k))
    (hY : ∀ k : Fin b, Y' (ix2 (y 0 : Fin R') k) = Y (ix2 (i 0 : Fin R) k))
    (hWx : ∀ k : Fin a, Wx' (ix2 k (y 1 : Fin n)) = Wx (ix2 k (y 1 : Fin n)))
    (hWy : ∀ k : Fin b, Wy' (ix2 k (y 1 : Fin n)) = Wy (ix2 k (y 1 : Fin n)))
    (hB : B' (ix2 (0 : Fin 1) (y 1 : Fin n)) = B (ix2 (0 : Fin 1) (y 1 : Fin n))) :
    layer X' Y' Wx' Wy' B' y = layer X Y Wx Wy B i := by
  unfold layer
  simp only [hj, hX, hY, hWx, hWy, hB]

end Cert.Layer

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.Payload.lean ====
/-
  What each kernel body stores, at the extended reals: the two-input dense layer of the blocks it loads.

  The message body's stored value is `layer s e Wtop Wbot b` of its five loaded blocks (gathered source rows,
  edge rows, the two halves of the message weights, the bias row); the update body's is the layer of node rows,
  aggregated rows, the two parts of the update weights and the bias row. Each product is a matrix product into a
  zero accumulator, so a plain sum over the contracted coordinate; the bias row is laid along every row; the
  changes of float format are the identity on extended reals.
-/
import proofs.«160304_j33200097198873_2_alg».proof.Proof.Gen.KernelIdeal.Skeleton
import proofs.«160304_j33200097198873_2_alg».proof.Proof.Layer
import proofs.«160304_j33200097198873_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Idealize.ShloMosaic.DenseLayers
open Cert.KernelIdeal Cert.KernelIdeal.Gen Cert.Layer

/-- The message body's stored block is the layer of its loaded blocks. -/
theorem message_payload (x0 : Vec Ideal S10000x64 .bf16) (x1 : Vec Ideal S10000x64 .f32) (x2 : Vec Ideal S64x128 .bf16)
    (x3 : Vec Ideal S64x128 .bf16) (x4 : Vec Ideal S1x128 .f32) :
    k0_pay1 (F := Ideal) x0 x1 x2 x3 x4 = layer (R := 10000) (a := 64) (b := 64) (n := 128) x0 x1 x2 x3 x4 := by
  funext j
  obtain ⟨p, q, rfl⟩ : ∃ (p : Fin 10000) (q : Fin 128), j = ix2 p q := ⟨j 0, j 1, eq_ix2 j⟩
  rw [layer_apply]
  unfold k0_pay1
  simp only [shapeCast_self]
  show max ((matmul dot_S10000x64_S64x128_S10000x128_1_0_0_1_n_n none x0 x2 (constant (F := Ideal) S10000x128 .f32 0x00000000#32) (ix2 p q)
      + matmul dot_S10000x64_S64x128_S10000x128_1_0_0_1_n_n none x1 x3 (constant (F := Ideal) S10000x128 .f32 0x00000000#32) (ix2 p q))
      + broadcastTo S10000x128 x4 broadcasts_S1x128_S10000x128 (ix2 p q)) (Ideal.ofBits .f32 0x00000000#32) = _
  rw [Ideal.ofBits_zero_f32, broadcastTo_1b_ab_apply x4 broadcasts_S1x128_S10000x128 p q]
  refine congrArg (fun z => max (z + x4 (ix2 (0 : Fin 1) q)) 0) ?_
  exact congrArg₂ (· + ·)
    (matmul_rowcol_zero_apply dot_S10000x64_S64x128_S10000x128_1_0_0_1_n_n_wf none x0 x2 p q)
    (matmul_rowcol_zero_apply dot_S10000x64_S64x128_S10000x128_1_0_0_1_n_n_wf none x1 x3 p q)

/-- The update body's stored block is the layer of its loaded blocks. -/
theorem update_payload (x0 : Vec Ideal S10000x64 .bf16) (x1 : Vec Ideal S10000x128 .f32) (x2 : Vec Ideal S64x128 .bf16)
    (x3 : Vec Ideal S128x128 .bf16) (x4 : Vec Ideal S1x128 .f32) :
    k1_pay1 (F := Ideal) x0 x1 x2 x3 x4 = layer (R := 10000) (a := 64) (b := 128) (n := 128) x0 x1 x2 x3 x4 := by
  funext j
  obtain ⟨p, q, rfl⟩ : ∃ (p : Fin 10000) (q : Fin 128), j = ix2 p q := ⟨j 0, j 1, eq_ix2 j⟩
  rw [layer_apply]
  unfold k1_pay1
  simp only [shapeCast_self]
  show max ((matmul dot_S10000x64_S64x128_S10000x128_1_0_0_1_n_n none x0 x2 (constant (F := Ideal) S10000x128 .f32 0x00000000#32) (ix2 p q)
      + matmul dot_S10000x128_S128x128_S10000x128_1_0_0_1_n_n none x1 x3 (constant (F := Ideal) S10000x128 .f32 0x00000000#32) (ix2 p q))
      + broadcastTo S10000x128 x4 broadcasts_S1x128_S10000x128 (ix2 p q)) (Ideal.ofBits .f32 0x00000000#32) = _
  rw [Ideal.ofBits_zero_f32, broadcastTo_1b_ab_apply x4 broadcasts_S1x128_S10000x128 p q]
  refine congrArg (fun z => max (z + x4 (ix2 (0 : Fin 1) q)) 0) ?_
  exact congrArg₂ (· + ·)
    (matmul_rowcol_zero_apply dot_S10000x64_S64x128_S10000x128_1_0_0_1_n_n_wf none x0 x2 p q)
    (matmul_rowcol_zero_apply dot_S10000x128_S128x128_S10000x128_1_0_0_1_n_n_wf none x1 x3 p q)

end Cert.KernelIdeal.Payload

end
-- ==== Proof.MessageValue.lean ====
/-
  The message region: what its result array holds after it, at the extended reals.

  The region's grid has 80 points; point t stages rows `10000 t … 10000 t + 9999` of its two row-blocked inputs and
  all of its three small inputs, and writes back rows `10000 t … 10000 t + 9999` of the result. What the body stores
  is the dense layer of the blocks it loaded, and entry (p, j) of that layer reads row p of the row blocks only; so
  the block written back at point t is block t of ONE array, the layer of the region's five whole input arrays
  (`result`), and the 80 blocks tile the result array: after the region it holds `result`.
-/
import proofs.«160304_j33200097198873_2_alg».proof.Proof.Gen.KernelIdeal.Frame
import proofs.«160304_j33200097198873_2_alg».proof.Proof.Payload
import proofs.«160304_j33200097198873_2_alg».proof.Proof.Layer
import Idealize.ShloMosaic.Lib.Pipeline.Value
import Idealize.ShloMosaic.Lib.ValueIdx

set_option maxRecDepth 16384

noncomputable section

open scoped BigOperators

namespace Cert.KernelIdeal.Message

open Idealize.ShloMosaic Idealize.ShloMosaic.TcCoe Idealize.SL.Sem Idealize.ShloMosaic.ValueIdx
open Idealize.ShloMosaic.Pipeline (Dat)
open Cert.KernelIdeal Cert.KernelIdeal.Gen Cert.Layer Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The region's result array as one function of its five input arrays as the region finds them. -/
abbrev result (c : Dev nD) : S800000x128.Idx → EReal :=
  layer (R := 800000) (a := 64) (b := 64) (n := 128)
    (V c main_v7 : S800000x64.Idx → EReal) (V c main_arg1 : S800000x64.Idx → EReal)
    (V c main_v9 : S64x128.Idx → EReal) (V c main_v11 : S64x128.Idx → EReal) (V c main_v12 : S1x128.Idx → EReal)

/-- The printed index maps, decided over the grid: the row-blocked windows are at block (t, 0), the small ones at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first input's block at point t is row 10000 t + p of its array. -/
theorem block0_read (c : Dev nD) (t : Fin cfg0.N) (p : Fin 10000) (k : Fin 64) (r : Fin 800000)
    (hr : r.val = t.val * 10000 + p.val) :
    (iblk0 V c 0 t : S10000x64.Idx → EReal) (ix2 p k) = (V c main_v7 : S800000x64.Idx → EReal) (ix2 r k) := by
  obtain ⟨e0, e1, -⟩ := idx_facts t
  unfold iblk0
  rw [View.read_apply]
  show (V c main_v7 : S800000x64.Idx → EReal) _ = (V c main_v7 : S800000x64.Idx → EReal) _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Row p of the second input's block at point t is row 10000 t + p of its array. -/
theorem block1_read (c : Dev nD) (t : Fin cfg0.N) (p : Fin 10000) (k : Fin 64) (r : Fin 800000)
    (hr : r.val = t.val * 10000 + p.val) :
    (iblk0 V c 1 t : S10000x64.Idx → EReal) (ix2 p k) = (V c main_arg1 : S800000x64.Idx → EReal) (ix2 r k) := by
  obtain ⟨-, -, e0, e1, -⟩ := idx_facts t
  unfold iblk0
  rw [View.read_apply]
  show (V c main_arg1 : S800000x64.Idx → EReal) _ = (V c main_arg1 : S800000x64.Idx → EReal) _
  refine congrArg _ (funext fun a => Fin.ext ?_)
  match a with
  | ⟨0, _⟩ => show win0_1.index t (0 : Fin 2) * 10000 + 1 * p.val = r.val; rw [e0, hr]; omega
  | ⟨1, _⟩ => show win0_1.index t (1 : Fin 2) * 64 + 1 * k.val = k.val; rw [e1]; omega

/-- The first weight block is its whole array at every point. -/
theorem block2_read (c : Dev nD) (t : Fin cfg0.N) (k : Fin 64) (j : Fin 128) :
    (iblk0 V c 2 t : S64x128.Idx → EReal) (ix2 k j) = (V c main_v9 : S64x128.Idx → EReal) (ix2 k j) := by
  obtain ⟨-, -, -, -, e0, e1, -⟩ := idx_facts t
  unfold iblk0
  rw [View.read_apply]
  show (V c main_v9 : S64x128.Idx → EReal) _ = (V c main_v9 : S64x128.Idx → EReal) _
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 128 + 1 * j.val = j.val; rw [e1]; omega

/-- The second weight block is its whole array at every point. -/
theorem block3_read (c : Dev nD) (t : Fin cfg0.N) (k : Fin 64) (j : Fin 128) :
    (iblk0 V c 3 t : S64x128.Idx → EReal) (ix2 k j) = (V c main_v11 : S64x128.Idx → EReal) (ix2 k j) := by
  obtain ⟨-, -, -, -, -, -, e0, e1, -⟩ := idx_facts t
  unfold iblk0
  rw [View.read_apply]
  show (V c main_v11 : S64x128.Idx → EReal) _ = (V c main_v11 : S64x128.Idx → EReal) _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 128 + 1 * j.val = j.val; rw [e1]; omega

/-- The bias block is its whole one-row array at every point. -/
theorem block4_read (c : Dev nD) (t : Fin cfg0.N) (j : Fin 128) :
    (iblk0 V c 4 t : S1x128.Idx → EReal) (ix2 (0 : Fin 1) j) = (V c main_v12 : S1x128.Idx → EReal) (ix2 (0 : Fin 1) j) := by
  obtain ⟨-, -, -, -, -, -, -, -, e0, e1, -⟩ := idx_facts t
  unfold iblk0
  rw [View.read_apply]
  show (V c main_v12 : S1x128.Idx → EReal) _ = (V c main_v12 : S1x128.Idx → EReal) _
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-- What point t writes back is block t of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S10000x128) hz,
    View.ld_unit_zero (S := S64x128) hz, View.ld_unit_zero (S := S128x128) hz, View.ld_unit_zero (S := S1x128) hz]
  rw [message_payload]
  obtain ⟨-, -, -, -, -, -, -, -, -, -, e0, e1⟩ := idx_facts t
  funext y
  have h0 : (((cfg0.win 5).blk t).view.emb y (0 : Fin 2)).val = t.val * 10000 + (y (0 : Fin 2)).val := by
    show win0_5.index t (0 : Fin 2) * 10000 + 1 * (y (0 : Fin 2)).val = _
    rw [e0]; omega
  have h1 : (((cfg0.win 5).blk t).view.emb y (1 : Fin 2)).val = (y (1 : Fin 2)).val := by
    show win0_5.index t (1 : Fin 2) * 128 + 1 * (y (1 : Fin 2)).val = _
    rw [e1]; omega
  show layer (R := 10000) (a := 64) (b := 64) (n := 128) (iblk0 V c 0 t) (iblk0 V c 1 t) (iblk0 V c 2 t) (iblk0 V c 3 t) (iblk0 V c 4 t) y
    = result V c (((cfg0.win 5).blk t).view.emb y)
  exact layer_congr_at _ _ _ _ _ _ _ _ _ _ y (((cfg0.win 5).blk t).view.emb y) (Fin.ext h1)
    (fun k => block0_read V c t _ k _ h0) (fun k => block1_read V c t _ k _ h0)
    (fun k => block2_read V c t k _) (fun k => block3_read V c t k _) (block4_read V c t _)

/-- An index of the result array is in point t's block iff each coordinate is in the block's range. -/
theorem mem_blk (t : Fin cfg0.N) (i : S800000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v13).slice (win0_5.rect t)).set ↔ _
  rw [View.set_slice_whole, Rect.mem_set_unit]
  exact Iff.rfl

/-- Every index of the result array is in some point's block: row r is in block r / 10000. -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 80 := N_0
  refine ⟨⟨(i 0).val / 10000, by rw [hN]; omega⟩, flush0_5 _, ?_⟩
  rw [mem_blk]
  obtain ⟨-, -, -, -, -, -, -, -, -, -, e0, e1⟩ := idx_facts (⟨(i 0).val / 10000, by rw [hN]; omega⟩ : Fin cfg0.N)
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 128 ≤ (i 1).val ∧ (i 1).val < win0_5.index _ (1 : Fin 2) * 128 + 128
    rw [e1]; omega

/-- The result array after the region is `result`. -/
theorem final (c : Dev nD) : (dat0 V c).arrAt 5 cfg0.N = result V c :=
  (dat0 V c).arrAt_eq_of_cover 5 (result V c) (fun t _ => flushed_eq V c t) cover

end Cert.KernelIdeal.Message

end
-- ==== Proof.UpdateValue.lean ====
/-
  The update region: what its result array holds after it, at the extended reals.

  The region's grid has 5 points; point t stages rows `10000 t … 10000 t + 9999` of its two row-blocked inputs and
  all of its three small inputs, and writes back rows `10000 t … 10000 t + 9999` of the result. What the body stores
  is the dense layer of the blocks it loaded, and entry (p, j) of that layer reads row p of the row blocks only; so
  the block written back at point t is block t of ONE array, the layer of the region's five whole input arrays
  (`result`), and the 5 blocks tile the result array: after the region it holds `result`.
-/
import proofs.«160304_j33200097198873_2_alg».proof.Proof.Gen.KernelIdeal.Frame
import proofs.«160304_j33200097198873_2_alg».proof.Proof.Payload
import proofs.«160304_j33200097198873_2_alg».proof.Proof.Layer
import Idealize.ShloMosaic.Lib.Pipeline.Value
import Idealize.ShloMosaic.Lib.ValueIdx

set_option maxRecDepth 16384

noncomputable section

open scoped BigOperators

namespace Cert.KernelIdeal.Update

open Idealize.ShloMosaic Idealize.ShloMosaic.TcCoe Idealize.SL.Sem Idealize.ShloMosaic.ValueIdx
open Idealize.ShloMosaic.Pipeline (Dat)
open Cert.KernelIdeal Cert.KernelIdeal.Gen Cert.Layer Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The region's result array as one function of its five input arrays as the region finds them. -/
abbrev result (c : Dev nD) : S50000x128.Idx → EReal :=
  layer (R := 50000) (a := 64) (b := 128) (n := 128)
    (V c main_v0 : S50000x64.Idx → EReal) (V c main_v17 : S50000x128.Idx → EReal)
    (V c main_v19 : S64x128.Idx → EReal) (V c main_v21 : S128x128.Idx → EReal) (V c main_v22 : S1x128.Idx → EReal)

/-- The printed index maps, decided over the grid: the row-blocked windows are at block (t, 0), the small ones at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first input's block at point t is row 10000 t + p of its array. -/
theorem block0_read (c : Dev nD) (t : Fin cfg1.N) (p : Fin 10000) (k : Fin 64) (r : Fin 50000)
    (hr : r.val = t.val * 10000 + p.val) :
    (iblk1 V c 0 t : S10000x64.Idx → EReal) (ix2 p k) = (V c main_v0 : S50000x64.Idx → EReal) (ix2 r k) := by
  obtain ⟨e0, e1, -⟩ := idx_facts t
  unfold iblk1
  rw [View.read_apply]
  show (V c main_v0 : S50000x64.Idx → EReal) _ = (V c main_v0 : S50000x64.Idx → EReal) _
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Row p of the second input's block at point t is row 10000 t + p of its array. -/
theorem block1_read (c : Dev nD) (t : Fin cfg1.N) (p : Fin 10000) (k : Fin 128) (r : Fin 50000)
    (hr : r.val = t.val * 10000 + p.val) :
    (iblk1 V c 1 t : S10000x128.Idx → EReal) (ix2 p k) = (V c main_v17 : S50000x128.Idx → EReal) (ix2 r k) := by
  obtain ⟨-, -, e0, e1, -⟩ := idx_facts t
  unfold iblk1
  rw [View.read_apply]
  show (V c main_v17 : S50000x128.Idx → EReal) _ = (V c main_v17 : S50000x128.Idx → EReal) _
  refine congrArg _ (funext fun a => Fin.ext ?_)
  match a with
  | ⟨0, _⟩ => show win1_1.index t (0 : Fin 2) * 10000 + 1 * p.val = r.val; rw [e0, hr]; omega
  | ⟨1, _⟩ => show win1_1.index t (1 : Fin 2) * 128 + 1 * k.val = k.val; rw [e1]; omega

/-- The first weight block is its whole array at every point. -/
theorem block2_read (c : Dev nD) (t : Fin cfg1.N) (k : Fin 64) (j : Fin 128) :
    (iblk1 V c 2 t : S64x128.Idx → EReal) (ix2 k j) = (V c main_v19 : S64x128.Idx → EReal) (ix2 k j) := by
  obtain ⟨-, -, -, -, e0, e1, -⟩ := idx_facts t
  unfold iblk1
  rw [View.read_apply]
  show (V c main_v19 : S64x128.Idx → EReal) _ = (V c main_v19 : S64x128.Idx → EReal) _
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 128 + 1 * j.val = j.val; rw [e1]; omega

/-- The second weight block is its whole array at every point. -/
theorem block3_read (c : Dev nD) (t : Fin cfg1.N) (k : Fin 128) (j : Fin 128) :
    (iblk1 V c 3 t : S128x128.Idx → EReal) (ix2 k j) = (V c main_v21 : S128x128.Idx → EReal) (ix2 k j) := by
  obtain ⟨-, -, -, -, -, -, e0, e1, -⟩ := idx_facts t
  unfold iblk1
  rw [View.read_apply]
  show (V c main_v21 : S128x128.Idx → EReal) _ = (V c main_v21 : S128x128.Idx → EReal) _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The bias block is its whole one-row array at every point. -/
theorem block4_read (c : Dev nD) (t : Fin cfg1.N) (j : Fin 128) :
    (iblk1 V c 4 t : S1x128.Idx → EReal) (ix2 (0 : Fin 1) j) = (V c main_v22 : S1x128.Idx → EReal) (ix2 (0 : Fin 1) j) := by
  obtain ⟨-, -, -, -, -, -, -, -, e0, e1, -⟩ := idx_facts t
  unfold iblk1
  rw [View.read_apply]
  show (V c main_v22 : S1x128.Idx → EReal) _ = (V c main_v22 : S1x128.Idx → EReal) _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- What point t writes back is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S10000x128) hz,
    View.ld_unit_zero (S := S64x128) hz, View.ld_unit_zero (S := S128x128) hz, View.ld_unit_zero (S := S1x128) hz]
  rw [update_payload]
  obtain ⟨-, -, -, -, -, -, -, -, -, -, e0, e1⟩ := idx_facts t
  funext y
  have h0 : (((cfg1.win 5).blk t).view.emb y (0 : Fin 2)).val = t.val * 10000 + (y (0 : Fin 2)).val := by
    show win1_5.index t (0 : Fin 2) * 10000 + 1 * (y (0 : Fin 2)).val = _
    rw [e0]; omega
  have h1 : (((cfg1.win 5).blk t).view.emb y (1 : Fin 2)).val = (y (1 : Fin 2)).val := by
    show win1_5.index t (1 : Fin 2) * 128 + 1 * (y (1 : Fin 2)).val = _
    rw [e1]; omega
  show layer (R := 10000) (a := 64) (b := 128) (n := 128) (iblk1 V c 0 t) (iblk1 V c 1 t) (iblk1 V c 2 t) (iblk1 V c 3 t) (iblk1 V c 4 t) y
    = result V c (((cfg1.win 5).blk t).view.emb y)
  exact layer_congr_at _ _ _ _ _ _ _ _ _ _ y (((cfg1.win 5).blk t).view.emb y) (Fin.ext h1)
    (fun k => block0_read V c t _ k _ h0) (fun k => block1_read V c t _ k _ h0)
    (fun k => block2_read V c t k _) (fun k => block3_read V c t k _) (block4_read V c t _)

/-- An index of the result array is in point t's block iff each coordinate is in the block's range. -/
theorem mem_blk (t : Fin cfg1.N) (i : S50000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v23).slice (win1_5.rect t)).set ↔ _
  rw [View.set_slice_whole, Rect.mem_set_unit]
  exact Iff.rfl

/-- Every index of the result array is in some point's block: row r is in block r / 10000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_5 _, ?_⟩
  rw [mem_blk]
  obtain ⟨-, -, -, -, -, -, -, -, -, -, e0, e1⟩ := idx_facts (⟨(i 0).val / 10000, by rw [hN]; omega⟩ : Fin cfg1.N)
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 128 ≤ (i 1).val ∧ (i 1).val < win1_5.index _ (1 : Fin 2) * 128 + 128
    rw [e1]; omega

/-- The result array after the region is `result`. -/
theorem final (c : Dev nD) : (dat1 V c).arrAt 5 cfg1.N = result V c :=
  (dat1 V c).arrAt_eq_of_cover 5 (result V c) (fun t _ => flushed_eq V c t) cover

end Cert.KernelIdeal.Update

end
-- ==== Proof.KernelOut.lean ====
/-
  The idealized kernel program's result as one function of its eight arguments, at the extended reals:

      messages   = layer (gathered source rows) (edge rows) (message weights, top / bottom) (message bias)
      aggregated = the messages summed into their destination rows
      result     = layer (node rows) aggregated (update weights, top / bottom) (update bias).
-/
import proofs.«160304_j33200097198873_2_alg».proof.Proof.KernelTerm
import proofs.«160304_j33200097198873_2_alg».proof.Proof.Layer

noncomputable section

namespace Cert.KernelIdeal.Term

open Idealize.ShloMosaic Idealize.SL.Sem
open Cert.KernelIdeal Cert.KernelIdeal.Gen Cert.Layer

/-- The per-edge messages. -/
def messages (x0 : (⟨S50000x64, .f32⟩ : BufTy).Contents (Elt Ideal)) (x1 : (⟨S800000x64, .f32⟩ : BufTy).Contents (Elt Ideal))
    (x2 : (⟨S128x128, .f32⟩ : BufTy).Contents (Elt Ideal)) (x3 : (⟨S128, .f32⟩ : BufTy).Contents (Elt Ideal))
    (x6 : (⟨S800000, .i32⟩ : BufTy).Contents (Elt Ideal)) : S800000x128.Idx → EReal :=
  layer (R := 800000) (a := 64) (b := 64) (n := 128) (gathered x0 x6) x1 (msgTop x2) (msgBot x2) (biasRow x3)

/-- The program's result. -/
def kernelOut (x0 : (⟨S50000x64, .f32⟩ : BufTy).Contents (Elt Ideal)) (x1 : (⟨S800000x64, .f32⟩ : BufTy).Contents (Elt Ideal))
    (x2 : (⟨S128x128, .f32⟩ : BufTy).Contents (Elt Ideal)) (x3 : (⟨S128, .f32⟩ : BufTy).Contents (Elt Ideal))
    (x4 : (⟨S192x128, .f32⟩ : BufTy).Contents (Elt Ideal)) (x5 : (⟨S128, .f32⟩ : BufTy).Contents (Elt Ideal))
    (x6 x7 : (⟨S800000, .i32⟩ : BufTy).Contents (Elt Ideal)) : S50000x128.Idx → EReal :=
  layer (R := 50000) (a := 64) (b := 128) (n := 128) (nodeRows x0) (aggregated x7 (messages x0 x1 x2 x3 x6))
    (updTop x4) (updBot x4) (biasRow x5)

end Cert.KernelIdeal.Term

end
-- ==== Proof.KernelValue.lean ====
/-
  The idealized kernel program's run, read: its result buffer ends at `kernelOut` of the argument arrays.

  Region 0 finds the gathered source rows, the edge rows, the two halves of the message weights and the bias row in
  its windows' arrays and leaves the messages in its result array; the host operations between the regions sum them
  into their destination rows; region 1 finds the node rows, those sums, the two parts of the update weights and
  the bias row, and leaves the layer of them in the program's result.
-/
import proofs.«160304_j33200097198873_2_alg».proof.Proof.KernelRun
import proofs.«160304_j33200097198873_2_alg».proof.Proof.EntryContents
import proofs.«160304_j33200097198873_2_alg».proof.Proof.MessageValue
import proofs.«160304_j33200097198873_2_alg».proof.Proof.UpdateValue
import proofs.«160304_j33200097198873_2_alg».proof.Proof.KernelOut

set_option maxRecDepth 16384

noncomputable section

namespace Cert.KernelIdeal.Hand

open Idealize.ShloMosaic Idealize.ShloMosaic.TcCoe Idealize.SL.Sem
open Cert.KernelIdeal Cert.KernelIdeal.Gen Cert.KernelIdeal.Term Cert.KernelIdeal.Entry Cert.Layer

variable (m : (ℓ : Loc nD τ sig) → Buf (Elt Ideal) ℓ) (ρ : Dev nD → PrngReg)

/-- Between the regions, region 0's result array holds the messages. -/
theorem W2_messages (c : Dev nD) :
    W2 m ρ c (Proc.devRef .tc main_v13) = messages (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  refine (W2_arr m ρ c 5).trans ?_
  rw [Message.final (V1 m ρ) c]
  show layer (R := 800000) (a := 64) (b := 64) (n := 128) (V1 m ρ c main_v7) (V1 m ρ c main_arg1) (V1 m ρ c main_v9)
    (V1 m ρ c main_v11) (V1 m ρ c main_v12) = _
  rw [V1_v7, V1_arg1, V1_v9, V1_v11, V1_v12]
  rfl

/-- After the last region, the program's result buffer holds `kernelOut` of the arguments. -/
theorem W4_result (c : Dev nD) :
    W4 m ρ c (Proc.devRef .tc main_v23)
      = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [Update.final (V3 m ρ) c]
  show layer (R := 50000) (a := 64) (b := 128) (n := 128) (V3 m ρ c main_v0) (V3 m ρ c main_v17) (V3 m ρ c main_v19)
    (V3 m ρ c main_v21) (V3 m ρ c main_v22) = _
  rw [V3_v0, V3_v17, V3_v19, V3_v21, V3_v22, W2_messages]
  rfl

/-- Every weakly fair execution of the program terminates, nothing faulting, with the result buffer at
    `kernelOut` of the argument arrays and every argument as launched. -/
theorem run_value : θ_run defs (onTc (τ := τ) (main (F := Ideal))) ⟨m, fun _ => 0, ρ⟩ (fun r => ∀ c : Dev nD,
      r.2.mem ((c.tc : Thread nD τ).loc main_v23)
        = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_result m ρ c), (h c).2⟩) (run_result m ρ)

end Cert.KernelIdeal.Hand

end
-- ==== Proof.LibConcatContraction.lean ====
/-
  A contraction over a concatenated axis splits into the contractions over the pieces (arbitrary extents; no
  program imported).

  * `sum_fin_split`: in an additive commutative monoid, a sum over `Fin n` with `n = a + b` is the sum of its
    first `a` terms plus the sum of the `b` terms from position `a` on.
  * `concat_cols_left` / `concat_cols_right`: two matrices `[r, a]` and `[r, b]` joined along the columns into
    `[r, n]`, `n = a + b`, read at `(i, k)`: the first at `(i, k)` for `k < a`, the second at `(i, k - a)` from
    column `a` on.
  * `contraction_concat`: so the row-by-column product of the joined matrix with `W : [n, c]` at `(i, j)` is the
    product of the first piece with the first `a` rows of `W` plus that of the second with the rows from `a` on.
    Only commutativity and associativity of the sum are used: it holds on the extended reals whatever the entries.
-/
import Idealize.ShloMosaic.Lib.Pipeline.Value
import Idealize.ShloMosaic.Lib.ValueIdx

noncomputable section

open scoped BigOperators

namespace Idealize.ShloMosaic.ConcatContraction

open Idealize.ShloMosaic Idealize.ShloMosaic.ValueIdx

/-- A sum over `Fin n`, `n = a + b`, is the sum of the first `a` terms plus the sum of the last `b`. -/
theorem sum_fin_split {M : Type*} [AddCommMonoid M] {n : ℕ} (a b : ℕ) (h : n = a + b) (f : Fin n → M) :
    ∑ k : Fin n, f k
      = (∑ k : Fin a, f ⟨k.val, by omega⟩) + ∑ k : Fin b, f ⟨a + k.val, by omega⟩ := by
  subst h
  exact Fin.sum_univ_add f

variable {α : Type}

/-- Two matrices joined along the columns, read at a column of the first. -/
theorem concat_cols_left {r a b n : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, n]⟩ 1)
    (i : Fin r) (k : Fin a) (k' : Fin n) (hk : k'.val = k.val) :
    concatenate ⟨2, ![r, n]⟩ 1 [⟨⟨2, ![r, a]⟩, x⟩, ⟨⟨2, ![r, b]⟩, y⟩] h (ix2 i k') = x (ix2 i k) :=
  concatenate_pair_apply_left (1 : Fin 2) x y h (ix2 i k') rfl (ix2 i k) (fun ax => by
    match ax with
    | ⟨0, _⟩ => rfl
    | ⟨1, _⟩ => exact hk.symm)

/-- Two matrices joined along the columns, read at a column of the second. -/
theorem concat_cols_right {r a b n : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, n]⟩ 1)
    (i : Fin r) (k : Fin b) (k' : Fin n) (hk : k'.val = a + k.val) :
    concatenate ⟨2, ![r, n]⟩ 1 [⟨⟨2, ![r, a]⟩, x⟩, ⟨⟨2, ![r, b]⟩, y⟩] h (ix2 i k') = y (ix2 i k) :=
  concatenate_pair_apply_right (1 : Fin 2) x y h (ix2 i k') rfl rfl (ix2 i k) (fun ax hax => by
    match ax with
    | ⟨0, _⟩ => rfl
    | ⟨1, _⟩ => exact absurd rfl hax) (by
    show k.val + a = k'.val
    omega)

/-- The product of a column-joined matrix with `W`, at an entry, splits along the join. -/
theorem contraction_concat {r a b n c : ℕ} (hn : n = a + b)
    (x : (⟨2, ![r, a]⟩ : Shape).Idx → EReal) (y : (⟨2, ![r, b]⟩ : Shape).Idx → EReal)
    (h : Shape.Concatenates [(⟨2, ![r, a]⟩ : Shape), ⟨2, ![r, b]⟩] ⟨2, ![r, n]⟩ 1)
    (W : (⟨2, ![n, c]⟩ : Shape).Idx → EReal) (i : Fin r) (j : Fin c) :
    ∑ k : Fin n, concatenate ⟨2, ![r, n]⟩ 1 [⟨⟨2, ![r, a]⟩, x⟩, ⟨⟨2, ![r, b]⟩, y⟩] h (ix2 i k) * W (ix2 k j)
      = (∑ k : Fin a, x (ix2 i k) * W (ix2 (⟨k.val, by omega⟩ : Fin n) j))
        + ∑ k : Fin b, y (ix2 i k) * W (ix2 (⟨a + k.val, by omega⟩ : Fin n) j) := by
  rw [sum_fin_split a b hn]
  congr 1
  · exact Finset.sum_congr rfl fun k _ => by rw [concat_cols_left x y h i k _ rfl]
  · exact Finset.sum_congr rfl fun k _ => by rw [concat_cols_right x y h i k _ rfl]

end Idealize.ShloMosaic.ConcatContraction

end
-- ==== Proof.Bridge.lean ====
/-
  The idealized kernel program's value is the idealized reference's, as functions of the eight arguments.

  The reference joins the gathered rows and the edge rows along the columns and multiplies by the whole message
  weights; the kernel multiplies each by its half of the weights and adds. A contraction over a joined axis is the
  sum of the contractions over its pieces (only the sum's commutativity and associativity: no finiteness is used),
  so the two messages agree entry by entry; the aggregation is the same scatter-add of equal messages; and the
  update layer agrees in the same way, with the node rows and the aggregated rows joined. The gather of source rows
  and the scatter-add are the same functions on both sides and are never opened.
-/
import proofs.«160304_j33200097198873_2_alg».proof.Proof.Gen.ReferenceIdeal.Read
import proofs.«160304_j33200097198873_2_alg».proof.Proof.KernelOut
import proofs.«160304_j33200097198873_2_alg».proof.Proof.LibConcatContraction
import Idealize.ShloMosaic.Lib.ValueLayout
import Idealize.ShloMosaic.PureOps.Ideal.Laws

noncomputable section

open scoped BigOperators

namespace Cert.Bridge

open Idealize.ShloMosaic Idealize.SL.Sem Idealize.ShloMosaic.ValueIdx Idealize.ShloMosaic.ConcatContraction
open Cert.Layer Cert.KernelIdeal.Term
open Cert.ReferenceIdeal.Read

/-- The gathered source rows are the same function of the arguments in both programs. -/
theorem gather_agree (x0 : (⟨Cert.KernelIdeal.S50000x64, .f32⟩ : BufTy).Contents (Elt Ideal))
    (x6 : (⟨Cert.KernelIdeal.S800000, .i32⟩ : BufTy).Contents (Elt Ideal)) :
    gathered x0 x6 = val_main_v6 (F := Ideal) x0 x6 := rfl

/-- The messages agree. -/
theorem message_eq (x0 : (⟨Cert.KernelIdeal.S50000x64, .f32⟩ : BufTy).Contents (Elt Ideal)) (x1 : (⟨Cert.KernelIdeal.S800000x64, .f32⟩ : BufTy).Contents (Elt Ideal))
    (x2 : (⟨Cert.KernelIdeal.S128x128, .f32⟩ : BufTy).Contents (Elt Ideal)) (x3 : (⟨Cert.KernelIdeal.S128, .f32⟩ : BufTy).Contents (Elt Ideal))
    (x6 : (⟨Cert.KernelIdeal.S800000, .i32⟩ : BufTy).Contents (Elt Ideal)) :
    messages x0 x1 x2 x3 x6 = val_main_v12 (F := Ideal) x0 x1 x2 x3 x6 := by
  funext i
  obtain ⟨r, j, rfl⟩ : ∃ (r : Fin 800000) (j : Fin 128), i = ix2 r j := ⟨i 0, i 1, eq_ix2 i⟩
  unfold messages
  rw [layer_apply, val_main_v12_apply, val_main_v11_apply, val_main_v8_apply, val_main_v10_apply, val_main_v9_apply,
    val_main_call0_v0_apply, val_main_call0_cst_apply]
  simp only [Ideal.maximumf_def, Ideal.addf_def, Ideal.ofBits_def, Ideal.ofBits_zero_f32]
  have el : ∀ k : Fin 128, lidx_main_v8 (ix2 r j) k = ix2 r k := fun k => funext fun a => by
    match a with | ⟨0, _⟩ => rfl | ⟨1, _⟩ => rfl
  have er : ∀ k : Fin 128, ridx_main_v8 (ix2 r j) k = ix2 k j := fun k => funext fun a => by
    match a with | ⟨0, _⟩ => rfl | ⟨1, _⟩ => rfl
  have eb : idx_main_v9 (idx_main_v10 (ix2 r j)) = ix1 j := funext fun a => by
    match a with | ⟨0, _⟩ => rfl
  simp only [el, er, eb]
  unfold val_main_v7
  rw [contraction_concat (r := 800000) (a := 64) (b := 64) (n := 128) (c := 128) rfl]
  refine congrArg (fun z => max z 0) (congrArg₂ (· + ·) (congrArg₂ (· + ·) ?_ ?_) ?_)
  · refine Finset.sum_congr rfl fun k _ => ?_
    rw [gather_agree]
    refine congrArg (val_main_v6 (F := Ideal) x0 x6 (ix2 r k) * ·) ?_
    exact slice2_axis0_apply 0 x2 Cert.KernelIdeal.Gen.slices_S128x128_S64x128_0_0 k j _ (Nat.zero_add _).symm
  · refine Finset.sum_congr rfl fun k _ => ?_
    refine congrArg (x1 (ix2 r k) * ·) ?_
    exact slice2_axis0_apply 64 x2 Cert.KernelIdeal.Gen.slices_S128x128_S64x128_64_0 k j _ rfl
  · exact shapeCast_a_1a_apply x3 Cert.KernelIdeal.Gen.shapeCasts_S128_S1x128 0 j

/-- The aggregated rows agree. -/
theorem aggregated_eq (x0 : (⟨Cert.KernelIdeal.S50000x64, .f32⟩ : BufTy).Contents (Elt Ideal)) (x1 : (⟨Cert.KernelIdeal.S800000x64, .f32⟩ : BufTy).Contents (Elt Ideal))
    (x2 : (⟨Cert.KernelIdeal.S128x128, .f32⟩ : BufTy).Contents (Elt Ideal)) (x3 : (⟨Cert.KernelIdeal.S128, .f32⟩ : BufTy).Contents (Elt Ideal))
    (x6 x7 : (⟨Cert.KernelIdeal.S800000, .i32⟩ : BufTy).Contents (Elt Ideal)) :
    aggregated x7 (messages x0 x1 x2 x3 x6) = val_main_v15 (F := Ideal) x0 x1 x2 x3 x6 x7 := by
  rw [message_eq]
  rfl

/-- The results agree. -/
theorem kernelOut_eq (x0 : (⟨Cert.KernelIdeal.S50000x64, .f32⟩ : BufTy).Contents (Elt Ideal)) (x1 : (⟨Cert.KernelIdeal.S800000x64, .f32⟩ : BufTy).Contents (Elt Ideal))
    (x2 : (⟨Cert.KernelIdeal.S128x128, .f32⟩ : BufTy).Contents (Elt Ideal)) (x3 : (⟨Cert.KernelIdeal.S128, .f32⟩ : BufTy).Contents (Elt Ideal))
    (x4 : (⟨Cert.KernelIdeal.S192x128, .f32⟩ : BufTy).Contents (Elt Ideal)) (x5 : (⟨Cert.KernelIdeal.S128, .f32⟩ : BufTy).Contents (Elt Ideal))
    (x6 x7 : (⟨Cert.KernelIdeal.S800000, .i32⟩ : BufTy).Contents (Elt Ideal)) :
    kernelOut x0 x1 x2 x3 x4 x5 x6 x7 = val_main_v21 (F := Ideal) x0 x1 x2 x3 x4 x5 x6 x7 := by
  funext i
  obtain ⟨r, j, rfl⟩ : ∃ (r : Fin 50000) (j : Fin 128), i = ix2 r j := ⟨i 0, i 1, eq_ix2 i⟩
  unfold kernelOut
  rw [aggregated_eq, layer_apply, val_main_v21_apply, val_main_v20_apply, val_main_v17_apply, val_main_v19_apply, val_main_v18_apply,
    val_main_call1_v0_apply, val_main_call1_cst_apply]
  simp only [Ideal.maximumf_def, Ideal.addf_def, Ideal.ofBits_def, Ideal.ofBits_zero_f32]
  have el : ∀ k : Fin 192, lidx_main_v17 (ix2 r j) k = ix2 r k := fun k => funext fun a => by
    match a with | ⟨0, _⟩ => rfl | ⟨1, _⟩ => rfl
  have er : ∀ k : Fin 192, ridx_main_v17 (ix2 r j) k = ix2 k j := fun k => funext fun a => by
    match a with | ⟨0, _⟩ => rfl | ⟨1, _⟩ => rfl
  have eb : idx_main_v18 (idx_main_v19 (ix2 r j)) = ix1 j := funext fun a => by
    match a with | ⟨0, _⟩ => rfl
  simp only [el, er, eb]
  unfold val_main_v16
  rw [contraction_concat (r := 50000) (a := 64) (b := 128) (n := 192) (c := 128) rfl]
  refine congrArg (fun z => max z 0) (congrArg₂ (· + ·) (congrArg₂ (· + ·) ?_ ?_) ?_)
  · refine Finset.sum_congr rfl fun k _ => ?_
    refine congrArg (x0 (ix2 r k) * ·) ?_
    exact slice2_axis0_apply 0 x4 Cert.KernelIdeal.Gen.slices_S192x128_S64x128_0_0 k j _ (Nat.zero_add _).symm
  · refine Finset.sum_congr rfl fun k _ => ?_
    refine congrArg (val_main_v15 (F := Ideal) x0 x1 x2 x3 x6 x7 (ix2 r k) * ·) ?_
    exact slice2_axis0_apply 64 x4 Cert.KernelIdeal.Gen.slices_S192x128_S128x128_64_0 k j _ rfl
  · exact shapeCast_a_1a_apply x5 Cert.KernelIdeal.Gen.shapeCasts_S128_S1x128 0 j

end Cert.Bridge

end
-- ==== Proof.lean ====
/-
  A graph message-passing layer: the kernel program against its reference, at the extended reals.

  Both programs compute, for node features x0 : [50000, 64], edge features x1 : [800000, 64], message weights
  x2 : [128, 128] with bias x3, update weights x4 : [192, 128] with bias x5, and source / destination indices x6, x7:

      messages   = relu ([x0[src] | x1] · x2 + x3)                    one row per edge
      aggregated = the messages summed into their destination rows     one row per node
      result     = relu ([x0 | aggregated] · x4 + x5).

  The reference joins the two inputs of each layer along the columns and multiplies by the whole weight matrix. The
  kernel program runs each layer as a kernel region over blocks of 10000 rows, multiplying each input by its own
  rows of the weights and adding; the gather of source rows and the scatter-add are host operations in both.

  * Kernel side: the region bodies' stored blocks are the two-input layer of the loaded blocks (Payload); each
    region's result array is the layer of its whole input arrays (MessageValue, UpdateValue); the host operations
    around the regions give those arrays as values of the arguments (EntryContents); so the program's result is
    `kernelOut` of the arguments (KernelValue, over the run of the two regions in KernelRun).
  * Reference side: its generated run and stages.
  * The two are one function (Bridge): a contraction over a joined axis splits into the contractions over the
    pieces, by commutativity and associativity of the sum alone, so the precondition is never opened; changes of
    float format are the identity on extended reals.
  The ideal pass rewrote nothing, so the kernel's idealization is its own text read at the extended reals.
-/
import proofs.«160304_j33200097198873_2_alg».proof.Defs
import proofs.«160304_j33200097198873_2_alg».proof.Proof.Gen.Kernel
import proofs.«160304_j33200097198873_2_alg».proof.Proof.Gen.Kernel.Frame
import proofs.«160304_j33200097198873_2_alg».proof.Proof.Gen.KernelIdeal
import proofs.«160304_j33200097198873_2_alg».proof.Proof.Gen.KernelIdeal.Frame
import proofs.«160304_j33200097198873_2_alg».proof.Proof.Gen.ReferenceIdeal
import proofs.«160304_j33200097198873_2_alg».proof.Proof.Gen.Pre_finite_inputs
import proofs.«160304_j33200097198873_2_alg».proof.Proof.Gen.ReferenceIdeal.Run
import proofs.«160304_j33200097198873_2_alg».proof.Proof.Gen.ReferenceIdeal.Read
import proofs.«160304_j33200097198873_2_alg».proof.Proof.KernelValue
import proofs.«160304_j33200097198873_2_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the arguments both programs end with the same result: the kernel's run ends at
    `kernelOut` of the arguments, the reference's at its last stage of the same arguments, and the two are equal. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v21_eq _ _ _ _ _ _ _ _).trans (Cert.Bridge.kernelOut_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
